-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x4096 : Shape := ⟨3, ![64, 64, 4096]⟩
abbrev S64x64x63 : Shape := ⟨3, ![64, 64, 63]⟩
abbrev S_ : Shape := ⟨0, ![]⟩

class Facts : Prop where
  bcast_S_S64x64x4096 : S_.BroadcastsInDim S64x64x4096 (![] : Fin 0 → Fin S64x64x4096.rank)
  reducesTo_S64x64x4096_S_d0_1_2 : S64x64x4096.ReducesTo [0, 1, 2] S_
  h_S_ : 0 < S_.numel
  bcast_S_S64x64x63 : S_.BroadcastsInDim S64x64x63 (![] : Fin 0 → Fin S64x64x63.rank)
  reducesTo_S64x64x63_S_d0_1_2 : S64x64x63.ReducesTo [0, 1, 2] S_

variable [Facts]

def fn {F : FTy → Type} [FloatOps F] (main_arg0 : FVec F S64x64x4096 .f32) (main_arg1 : FVec F S64x64x63 .f32) (main_arg2 : FVec F S64x64x63 .f32) : IVec S_ 1 :=
  let main_v0 : FVec F S64x64x4096 .f32 := Host.absf main_arg0
  let main_cst : FVec F S_ .f32 := constant S_ .f32 0x7F800000#32
  let main_v1 : FVec F S64x64x4096 .f32 := broadcastInDim S64x64x4096 ![] bcast_S_S64x64x4096 main_cst
  let main_v2 : IVec S64x64x4096 1 := cmpf .olt main_v0 main_v1
  let main_c : IVec S_ 1 := constantI S_ 1 1#1
  let main_v3 : IVec S_ 1 := (fun x v => Host.reduce IntOp.andi x v reducesTo_S64x64x4096_S_d0_1_2 h_S_) main_v2 main_c
  let main_v4 : FVec F S64x64x63 .f32 := Host.absf main_arg1
  let main_cst_0 : FVec F S_ .f32 := constant S_ .f32 0x7F800000#32
  let main_v5 : FVec F S64x64x63 .f32 := broadcastInDim S64x64x63 ![] bcast_S_S64x64x63 main_cst_0
  let main_v6 : IVec S64x64x63 1 := cmpf .olt main_v4 main_v5
  let main_c_1 : IVec S_ 1 := constantI S_ 1 1#1
  let main_v7 : IVec S_ 1 := (fun x v => Host.reduce IntOp.andi x v reducesTo_S64x64x63_S_d0_1_2 h_S_) main_v6 main_c_1
  let main_v8 : IVec S_ 1 := andi main_v3 main_v7
  let main_v9 : FVec F S64x64x63 .f32 := Host.absf main_arg2
  let main_cst_2 : FVec F S_ .f32 := constant S_ .f32 0x7F800000#32
  let main_v10 : FVec F S64x64x63 .f32 := broadcastInDim S64x64x63 ![] bcast_S_S64x64x63 main_cst_2
  let main_v11 : IVec S64x64x63 1 := cmpf .olt main_v9 main_v10
  let main_c_3 : IVec S_ 1 := constantI S_ 1 1#1
  let main_v12 : IVec S_ 1 := (fun x v => Host.reduce IntOp.andi x v reducesTo_S64x64x63_S_d0_1_2 h_S_) main_v11 main_c_3
  let main_v13 : IVec S_ 1 := andi main_v8 main_v12
  main_v13
-- ==== Kernel.lean ====
abbrev S64x64x4096 : Shape := ⟨3, ![64, 64, 4096]⟩
abbrev S64x64x63 : Shape := ⟨3, ![64, 64, 63]⟩
abbrev S4096x4096 : Shape := ⟨2, ![4096, 4096]⟩
abbrev S4096x63 : Shape := ⟨2, ![4096, 63]⟩
abbrev S256x4096 : Shape := ⟨2, ![256, 4096]⟩
abbrev S256x63 : Shape := ⟨2, ![256, 63]⟩
abbrev S256x4159 : Shape := ⟨2, ![256, 4159]⟩

abbrev nBuf : Space → Nat
  | .hbm => 8
  | .vmem => 8
  | .smem => 0
  | _ => 0

abbrev bufTy : (tb : Table) → Fin (tcTables nBuf tb) → BufTy
  | .hbm, ⟨0, _⟩ => ⟨S64x64x4096, .f32⟩
  | .hbm, ⟨1, _⟩ => ⟨S64x64x63, .f32⟩
  | .hbm, ⟨2, _⟩ => ⟨S64x64x63, .f32⟩
  | .hbm, ⟨3, _⟩ => ⟨S4096x4096, .f32⟩
  | .hbm, ⟨4, _⟩ => ⟨S4096x63, .f32⟩
  | .hbm, ⟨5, _⟩ => ⟨S4096x63, .f32⟩
  | .hbm, ⟨6, _⟩ => ⟨S4096x4096, .f32⟩
  | .hbm, ⟨7, _⟩ => ⟨S64x64x4096, .f32⟩
  | .local _ .vmem, ⟨0, _⟩ => ⟨S256x4096, .f32⟩
  | .local _ .vmem, ⟨1, _⟩ => ⟨S256x4096, .f32⟩
  | .local _ .vmem, ⟨2, _⟩ => ⟨S256x63, .f32⟩
  | .local _ .vmem, ⟨3, _⟩ => ⟨S256x63, .f32⟩
  | .local _ .vmem, ⟨4, _⟩ => ⟨S256x63, .f32⟩
  | .local _ .vmem, ⟨5, _⟩ => ⟨S256x63, .f32⟩
  | .local _ .vmem, ⟨6, _⟩ => ⟨S256x4096, .f32⟩
  | .local _ .vmem, ⟨7, _⟩ => ⟨S256x4096, .f32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x63 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x64x4096_S4096x4096 : S64x64x4096.ShapeCasts S4096x4096
  shapeCasts_S64x64x63_S4096x63 : S64x64x63.ShapeCasts S4096x63
  inb_S256x63_S256x63_0_0 : ∀ a, (![0, 0] : Fin 2 → Nat) a + S256x63.size a ≤ S256x63.size a
  h_S256x63 : 0 < S256x63.numel
  shapeCasts_S256x63_S256x63 : S256x63.ShapeCasts S256x63
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  concatenates_S256x63_S256x4096_S256x4159_d1 : Shape.Concatenates [S256x63, S256x4096] S256x4159 1
  rotates_S256x4159_d1 : S256x4159.Rotates 1 none
  slices_S256x4159_o0_63_S256x4096 : S256x4159.Slices ![0, 63] S256x4096
  shapeCasts_S4096x4096_S64x64x4096 : S4096x4096.ShapeCasts S64x64x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x63.size a ≤ S4096x63.size a
  hwx0_1 : ∀ i : grid0.Coords, EltTy.bits .f32 = 32 ∨ (Rect.block (s := S4096x63) S256x63.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x63.size a ≤ S4096x63.size a
  hwx0_2 : ∀ i : grid0.Coords, EltTy.bits .f32 = 32 ∨ (Rect.block (s := S4096x63) S256x63.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x63.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x4096 : Shape := ⟨3, ![64, 64, 4096]⟩
abbrev S64x64x63 : Shape := ⟨3, ![64, 64, 63]⟩
abbrev S64x64x4159 : Shape := ⟨3, ![64, 64, 4159]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S64x64x4096, .f32⟩
  | .hbm, ⟨1, _⟩ => ⟨S64x64x63, .f32⟩
  | .hbm, ⟨2, _⟩ => ⟨S64x64x63, .f32⟩
  | .hbm, ⟨3, _⟩ => ⟨S64x64x4159, .f32⟩
  | .hbm, ⟨4, _⟩ => ⟨S_, .f32⟩
  | .hbm, ⟨5, _⟩ => ⟨S_, .f32⟩
  | .hbm, ⟨6, _⟩ => ⟨S64x64x4096, .f32⟩
  | .hbm, ⟨7, _⟩ => ⟨S64x64x4159, .f32⟩
  | .hbm, ⟨8, _⟩ => ⟨S64x64x4159, .f32⟩
  | .hbm, ⟨9, _⟩ => ⟨S_, .f32⟩
  | .hbm, ⟨10, _⟩ => ⟨S_, .f32⟩
  | .hbm, ⟨11, _⟩ => ⟨S64x64x4096, .f32⟩
  | .hbm, ⟨12, _⟩ => ⟨S64x64x4096, .f32⟩
  | _, _ => ⟨S64x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  concatenates_S64x64x63_S64x64x4096_S64x64x4159_d2 : Shape.Concatenates [S64x64x63, S64x64x4096] S64x64x4159 2
  bcast_S_S_ : S_.BroadcastsInDim S_ (![] : Fin 0 → Fin S_.rank)
  reduceWindows_S64x64x4159_S64x64x4096_w1s1p0_0_w1s1p0_0_w64s1p0_0 : S64x64x4159.ReduceWindows (![1, 1, 64] : Fin 3 → Nat) ![1, 1, 1] ![0, 0, 0] ![0, 0, 0] S64x64x4096
  h_S_ : 0 < S_.numel

variable [Facts₀]

class Facts : Prop extends Facts₀ where

variable [Facts]
-- ==== Proof.SlidingMax.lean ====
/-
  The row mathematics of the certificate, with no program in sight.

  A row of the padded signal has 4159 lanes: 63 lanes of history followed by 4096 new samples (`cat`). The causal
  moving maximum of window 64 at sample `t` is the supremum of the padded row over lanes `t … t + 63` (`win`). The
  result row is the moving MINIMUM of the moving maximum, the second stage padded with its own 63 lanes of history and
  computed as a negated moving maximum of the negated row (`rowOut`).

  Two ways of computing `win` meet here, both through their upper bounds, so that no order of evaluation is ever
  compared with another:
  * a left fold of `max` from `⊥` over any list of positions is bounded by `w` exactly when every listed value is
    (`foldl_max_le_iff`);
  * a rotate-and-max doubling scheme: if `z i` is the maximum of the `n` lanes ending at `i` (counted backwards around
    the end of the row, `back`), then `max (z i) (z (back i n))` is the maximum of the `2 n` lanes ending at `i`, because
    stepping back `n` and then `d` is stepping back `n + d` (`back_back`, `forall_lt_double`). From lane 63 on, 63 steps
    back never pass the start of the row, so nothing that came around the end is seen (`back_top`).
-/
import Idealize.ShloMosaic.PureOps.Ideal

noncomputable section

namespace Cert.SlidingMax

/-! ## Lanes of a padded row -/

/-- The lane `d` steps before lane `i`, going around the end of the 4159-lane row. -/
def back (i : Fin 4159) (d : ℕ) : Fin 4159 := ⟨(i.val + 4159 - d % 4159) % 4159, Nat.mod_lt _ (by norm_num)⟩

theorem back_val (i : Fin 4159) (d : ℕ) : (back i d).val = (i.val + 4159 - d % 4159) % 4159 := rfl

/-- No step back is the lane itself. -/
theorem back_zero (i : Fin 4159) : back i 0 = i := Fin.ext (by
  have := i.isLt
  rw [back_val]; omega)

/-- Stepping back `n` and then `d` is stepping back `n + d`. -/
theorem back_back (i : Fin 4159) (n d : ℕ) (h : n + d < 4159) : back (back i n) d = back i (n + d) := Fin.ext (by
  have := i.isLt
  rw [back_val, back_val, back_val]; omega)

/-- Lane `k` of the window of sample `t`: lanes `t … t + 63` of the padded row. -/
def pos (t : Fin 4096) (k : Fin 64) : Fin 4159 := ⟨t.val + k.val, by have := t.isLt; have := k.isLt; omega⟩

/-- The last lane of the window of sample `t`. -/
def top (t : Fin 4096) : Fin 4159 := ⟨t.val + 63, by have := t.isLt; omega⟩

/-- From the window's last lane, fewer than 64 steps back stay inside the window: nothing comes around the end. -/
theorem back_top (t : Fin 4096) (k : Fin 64) : back (top t) (63 - k.val) = pos t k := Fin.ext (by
  have := t.isLt; have := k.isLt
  rw [back_val]; show (t.val + 63 + 4159 - (63 - k.val) % 4159) % 4159 = t.val + k.val; omega)

/-- A bound on the first `2 n` steps is a bound on the first `n` and on the `n` after them. -/
theorem forall_lt_double {P : ℕ → Prop} (n : ℕ) : (∀ d < 2 * n, P d) ↔ (∀ d < n, P d) ∧ (∀ d < n, P (n + d)) := by
  constructor
  · intro h
    exact ⟨fun d hd => h d (by omega), fun d hd => h (n + d) (by omega)⟩
  · rintro ⟨h1, h2⟩ d hd
    by_cases hlt : d < n
    · exact h1 d hlt
    · have h3 := h2 (d - n) (by omega)
      rwa [show n + (d - n) = d by omega] at h3

/-! ## The moving maximum, and the result row -/

/-- The causal moving maximum of window 64 of a padded row, at sample `t`. -/
def win (f : Fin 4159 → EReal) (t : Fin 4096) : EReal := ⨆ k : Fin 64, f (pos t k)

theorem win_le_iff (f : Fin 4159 → EReal) (t : Fin 4096) (w : EReal) : win f t ≤ w ↔ ∀ k : Fin 64, f (pos t k) ≤ w :=
  iSup_le_iff

/-- A value with the window's upper bounds is the window's maximum. -/
theorem eq_win_of_le_iff {a : EReal} {f : Fin 4159 → EReal} {t : Fin 4096}
    (h : ∀ w, a ≤ w ↔ ∀ k : Fin 64, f (pos t k) ≤ w) : a = win f t :=
  eq_of_forall_ge_iff fun w => (h w).trans (win_le_iff f t w).symm

/-- A row of 4096 samples behind its 63 lanes of history. -/
def cat (p : Fin 63 → EReal) (x : Fin 4096 → EReal) (i : Fin 4159) : EReal :=
  if h : i.val < 63 then p ⟨i.val, h⟩ else x ⟨i.val - 63, by have := i.isLt; omega⟩

theorem cat_of_lt (p : Fin 63 → EReal) (x : Fin 4096 → EReal) (i : Fin 4159) (h : i.val < 63) :
    cat p x i = p ⟨i.val, h⟩ := dif_pos h

theorem cat_of_ge (p : Fin 63 → EReal) (x : Fin 4096 → EReal) (i : Fin 4159) (h : 63 ≤ i.val) :
    cat p x i = x ⟨i.val - 63, by have := i.isLt; omega⟩ := dif_neg (by omega)

/-- One result row: the moving minimum (a negated moving maximum of the negated row) of the moving maximum of the
    samples `x` behind the history `p`, itself behind the second stage's history `q`. -/
def rowOut (p q : Fin 63 → EReal) (x : Fin 4096 → EReal) (t : Fin 4096) : EReal :=
  -win (fun i => -cat q (win (cat p x)) i) t

/-! ## A left fold of `max` -/

/-- A left fold of `max` is below `w` exactly when its start and every folded value are. -/
theorem foldl_max_le_iff {ι : Type} (g : ι → EReal) (l : List ι) (v w : EReal) :
    l.foldl (fun r n => max r (g n)) v ≤ w ↔ v ≤ w ∧ ∀ n ∈ l, g n ≤ w := by
  induction l generalizing v with
  | nil => simp
  | cons a l ih =>
    rw [List.foldl_cons, ih, max_le_iff]
    constructor
    · rintro ⟨⟨hv, ha⟩, hl⟩
      exact ⟨hv, fun n hn => by
        rcases List.mem_cons.1 hn with rfl | hn
        · exact ha
        · exact hl n hn⟩
    · rintro ⟨hv, hl⟩
      exact ⟨⟨hv, hl a (List.mem_cons_self ..)⟩, fun n hn => hl n (List.mem_cons_of_mem _ hn)⟩

end Cert.SlidingMax

end
-- ==== Proof.DoublingMax.lean ====
/-
  The kernel's way of computing a moving maximum, read at an index.

  A block is 256 rows of 4159 lanes. One round replaces the block `z` by `max z (z rotated by s lanes)`; the rotation
  brings lane `i - s` to lane `i`, around the end of the row. After the rounds with `s = 1, 2, 4, 8, 16, 32`, lane `i` holds
  the maximum of the 64 lanes ending at `i`, counted backwards around the end (`rounds_le_iff`: induction on the rounds,
  each doubling the run of lanes already covered). The slice that keeps lanes 63 … 4158 keeps exactly the lanes whose 64
  predecessors do not pass the start of the row, so sample `t` of the slice is the moving maximum `win` of the row
  (`stage_apply`). A two-piece concatenation along the lanes is `cat` of its pieces' rows (`concat_apply`).
-/
import Idealize.ShloMosaic.Lib.KernelVsHost
import proofs.«136299_j2267742732763_2_alg».proof.Proof.SlidingMax

noncomputable section

namespace Cert.KernelRow

open Idealize.ShloMosaic Idealize.ShloMosaic.ValueIdx Cert.SlidingMax

/-- A block of padded rows. -/
abbrev Lanes : Shape := ⟨2, ![256, 4159]⟩
/-- A block of history rows. -/
abbrev Hist : Shape := ⟨2, ![256, 63]⟩
/-- A block of sample rows. -/
abbrev Samples : Shape := ⟨2, ![256, 4096]⟩

/-- One round: the block against itself rotated by `sb` lanes. -/
def step (h : Lanes.Rotates 1 none) (sb : BitVec 32) (z : FVec Ideal Lanes .f32) : FVec Ideal Lanes .f32 :=
  maximumf z (dynamicRotate 1 sb none z h)

/-- If lane `i` of `z` is the maximum of the `n` lanes of `buf` ending at `i`, then after a round by `n` lanes it is the
    maximum of the `2 n` lanes ending at `i`. -/
theorem step_le_iff (h : Lanes.Rotates 1 none) (n m : ℕ) (hm : m = 2 * n) (hn : n ≤ 32) (sb : BitVec 32)
    (hsb : sb.toNat = n) (buf z : FVec Ideal Lanes .f32)
    (hz : ∀ (r : Fin 256) (i : Fin 4159) (w : EReal), z (ix2 r i) ≤ w ↔ ∀ d < n, buf (ix2 r (back i d)) ≤ w)
    (r : Fin 256) (i : Fin 4159) (w : EReal) :
    step h sb z (ix2 r i) ≤ w ↔ ∀ d < m, buf (ix2 r (back i d)) ≤ w := by
  subst hm
  have hrot : dynamicRotate 1 sb none z h (ix2 r i) = z (ix2 r (back i n)) :=
    dynamicRotate_apply 1 sb z h (ix2 r i) (ix2 r (back i n)) (fun b => match b with
      | ⟨0, _⟩ => by
        show r.val = if (0 : Fin 2) = 1 then _ else r.val
        rw [if_neg (by decide)]
      | ⟨1, _⟩ => by
        show (back i n).val = if (1 : Fin 2) = 1 then (i.val + 4159 - sb.toNat % 4159) % 4159 else _
        rw [if_pos rfl, hsb, back_val])
  unfold step
  rw [maximumf_apply, max_le_iff, hrot, hz, hz, forall_lt_double]
  have e : ∀ d < n, back (back i n) d = back i (n + d) := fun d hd => back_back i n d (by omega)
  constructor
  · rintro ⟨h1, h2⟩
    exact ⟨h1, fun d hd => by rw [← e d hd]; exact h2 d hd⟩
  · rintro ⟨h1, h2⟩
    exact ⟨h1, fun d hd => by rw [e d hd]; exact h2 d hd⟩

/-- The six rounds, by 1, 2, 4, 8, 16 and 32 lanes. -/
def rounds (h : Lanes.Rotates 1 none) (buf : FVec Ideal Lanes .f32) : FVec Ideal Lanes .f32 :=
  step h 32#32 (step h 16#32 (step h 8#32 (step h 4#32 (step h 2#32 (step h 1#32 buf)))))

/-- After the six rounds lane `i` is the maximum of the 64 lanes ending at `i`, around the end of the row. -/
theorem rounds_le_iff (h : Lanes.Rotates 1 none) (buf : FVec Ideal Lanes .f32) (r : Fin 256) (i : Fin 4159) (w : EReal) :
    rounds h buf (ix2 r i) ≤ w ↔ ∀ d < 64, buf (ix2 r (back i d)) ≤ w := by
  have h0 : ∀ (r : Fin 256) (i : Fin 4159) (w : EReal),
      buf (ix2 r i) ≤ w ↔ ∀ d < 1, buf (ix2 r (back i d)) ≤ w := fun r i w => by
    constructor
    · intro H d hd
      obtain rfl : d = 0 := by omega
      rwa [back_zero]
    · intro H
      have h' := H 0 (by omega)
      rwa [back_zero] at h'
  have h1 := step_le_iff h 1 2 rfl (by omega) 1#32 rfl buf buf h0
  have h2 := step_le_iff h 2 4 rfl (by omega) 2#32 rfl buf _ h1
  have h4 := step_le_iff h 4 8 rfl (by omega) 4#32 rfl buf _ h2
  have h8 := step_le_iff h 8 16 rfl (by omega) 8#32 rfl buf _ h4
  have h16 := step_le_iff h 16 32 rfl (by omega) 16#32 rfl buf _ h8
  have h32 := step_le_iff h 32 64 rfl (by omega) 32#32 rfl buf _ h16
  exact h32 r i w

/-- Sample `t` of the slice of the six rounds from lane 63 on is the moving maximum of the row. -/
theorem stage_apply (h : Lanes.Rotates 1 none) (hs : Lanes.Slices ![0, 63] Samples) (buf : FVec Ideal Lanes .f32)
    (r : Fin 256) (t : Fin 4096) :
    extractStridedSlice Samples ![0, 63] (rounds h buf) hs (ix2 r t) = win (fun i => buf (ix2 r i)) t := by
  rw [extractStridedSlice_apply ![0, 63] (rounds h buf) hs (ix2 r t) (ix2 r (top t)) (fun a => match a with
    | ⟨0, _⟩ => by show r.val = 0 + r.val; omega
    | ⟨1, _⟩ => by show t.val + 63 = 63 + t.val; omega)]
  refine eq_win_of_le_iff fun w => ?_
  rw [rounds_le_iff]
  constructor
  · intro H k
    have h1 := H (63 - k.val) (by omega)
    rwa [back_top] at h1
  · intro H d hd
    have e : back (top t) (63 - (63 - d)) = pos t ⟨63 - d, by omega⟩ := back_top t ⟨63 - d, by omega⟩
    rw [show 63 - (63 - d) = d by omega] at e
    rw [e]
    exact H _

/-- A history block and a sample block joined along the lanes: row `r` is `cat` of the two rows. -/
theorem concat_apply (hc : Shape.Concatenates [Hist, Samples] Lanes 1) (a : FVec Ideal Hist .f32)
    (b : FVec Ideal Samples .f32) (r : Fin 256) (i : Fin 4159) :
    concatenate Lanes 1 [⟨Hist, a⟩, ⟨Samples, b⟩] hc (ix2 r i)
      = cat (fun l => a (ix2 r l)) (fun s => b (ix2 r s)) i := by
  by_cases hi : i.val < 63
  · rw [cat_of_lt _ _ _ hi]
    exact concatenate_pair_apply_left 1 a b hc (ix2 r i) rfl (ix2 r ⟨i.val, hi⟩) (fun b' => match b' with
      | ⟨0, _⟩ => rfl
      | ⟨1, _⟩ => rfl)
  · have hi' : 63 ≤ i.val := by omega
    rw [cat_of_ge _ _ _ hi']
    exact concatenate_pair_apply_right 1 a b hc (ix2 r i) rfl rfl (ix2 r ⟨i.val - 63, by have := i.isLt; omega⟩)
      (fun b' hb => match b', hb with
        | ⟨0, _⟩, _ => rfl
        | ⟨1, _⟩, hb => absurd rfl hb)
      (by show i.val - 63 + 63 = i.val; omega)

end Cert.KernelRow

end
-- ==== Proof.KernelPayload.lean ====
/-
  The kernel body's result block at an index.

  The body joins the first stage's history block and the sample block along the lanes, runs the six rotate-and-max
  rounds, keeps lanes 63 … 4158 (the moving maximum of every row), joins that behind the second stage's history block,
  negates (as `0 - x`), runs the six rounds again, keeps lanes 63 … 4158 and negates. Row `r` of the result is
  therefore `rowOut` of row `r` of the three loaded blocks (`pay_apply`): the two stages by `stage_apply`, the two joins
  by `concat_apply`, and `0 - x = -x` on every extended real.
-/
import proofs.«136299_j2267742732763_2_alg».proof.Proof.Gen.KernelIdeal.Skeleton
import proofs.«136299_j2267742732763_2_alg».proof.Proof.DoublingMax

noncomputable section

namespace Cert.KernelIdeal.Payload

open Cert.KernelIdeal Cert.KernelIdeal.Gen
open Idealize.ShloMosaic Idealize.ShloMosaic.ValueIdx Cert.SlidingMax Cert.KernelRow

/-- The body's arithmetic, with its two runs of six rounds named. -/
theorem pay_eq (v0 v18 : Vec Ideal S256x63 .f32) (v2 : Vec Ideal S256x4096 .f32) :
    k0_pay1 (F := Ideal) v0 v2 v18
      = subf (broadcast S256x4096 (Scalar.ofBits .f32 0x00000000#32))
          (extractStridedSlice S256x4096 ![0, 63]
            (rounds rotates_S256x4159_d1
              (subf (broadcast S256x4159 (Scalar.ofBits .f32 0x00000000#32))
                (concatenate S256x4159 1
                  [⟨S256x63, shapeCast S256x63 v18 shapeCasts_S256x63_S256x63⟩,
                   ⟨S256x4096, extractStridedSlice S256x4096 ![0, 63]
                      (rounds rotates_S256x4159_d1
                        (concatenate S256x4159 1
                          [⟨S256x63, shapeCast S256x63 v0 shapeCasts_S256x63_S256x63⟩,
                           ⟨S256x4096, shapeCast S256x4096 v2 shapeCasts_S256x4096_S256x4096⟩]
                          concatenates_S256x63_S256x4096_S256x4159_d1))
                      slices_S256x4159_o0_63_S256x4096⟩]
                  concatenates_S256x63_S256x4096_S256x4159_d1)))
            slices_S256x4159_o0_63_S256x4096) := rfl

/-- Row `r` of the body's result is `rowOut` of row `r` of the first stage's history block `v0`, the second stage's
    history block `v18` and the sample block `v2`. -/
theorem pay_apply (v0 v18 : Vec Ideal S256x63 .f32) (v2 : Vec Ideal S256x4096 .f32) (r : Fin 256) (t : Fin 4096) :
    k0_pay1 (F := Ideal) v0 v2 v18 (ix2 r t)
      = rowOut (fun l => v0 (ix2 r l)) (fun l => v18 (ix2 r l)) (fun s => v2 (ix2 r s)) t := by
  rw [pay_eq, subf_zero_eq_hostNegf, subf_zero_eq_hostNegf]
  show -(extractStridedSlice S256x4096 ![0, 63] (rounds _ (Host.negf _)) _ (ix2 r t)) = _
  rw [stage_apply]
  unfold rowOut
  refine congrArg (fun f : Fin 4159 → EReal => -win f t) (funext fun i => ?_)
  show -(concatenate S256x4159 1 _ _ (ix2 r i)) = _
  rw [shapeCast_self, concat_apply]
  refine congrArg (fun f : Fin 4096 → EReal => -cat (fun l => v18 (ix2 r l)) f i) (funext fun s => ?_)
  rw [stage_apply]
  refine congrArg (fun f : Fin 4159 → EReal => win f s) (funext fun i' => ?_)
  rw [shapeCast_self, shapeCast_self, concat_apply]

end Cert.KernelIdeal.Payload

end
-- ==== Proof.HostRow.lean ====
/-
  The reference's way of computing a moving maximum, read at an index, and the specification of the whole result.

  The host's window reduction folds `max` from its initial value over the 1 × 1 × 64 window's positions in some fixed
  order. The initial value is the bottom element, and a fold of `max` is determined by its upper bounds, so the order
  never matters: the positions of the window of `(b, c, t)` are exactly the lanes `t … t + 63` of row `(b, c)`, each
  inside the padded array (no padding is configured), and the fold is the moving maximum `win` of that row
  (`reduceWindow_apply`). A two-piece concatenation along the last axis is `cat` of its pieces' rows
  (`concat3_apply`). `G` is the certificate's specification: entry `(b, c, t)` of the result is `rowOut` of row
  `(b, c)` of the three argument arrays.
-/
import Idealize.ShloMosaic.Lib.Pipeline.Value
import Idealize.ShloMosaic.Lib.ValueIdx
import Idealize.ShloMosaic.PureOps.Ideal.Laws
import proofs.«136299_j2267742732763_2_alg».proof.Proof.SlidingMax

noncomputable section

namespace Cert.HostRow

open Idealize.ShloMosaic Idealize.ShloMosaic.ValueIdx Cert.SlidingMax

/-- The padded signal: 64 × 64 rows of 4159 lanes. -/
abbrev Padded : Shape := ⟨3, ![64, 64, 4159]⟩
/-- The samples, and the result: 64 × 64 rows of 4096. -/
abbrev Signal : Shape := ⟨3, ![64, 64, 4096]⟩
/-- A stage's history: 64 × 64 rows of 63. -/
abbrev Hist3 : Shape := ⟨3, ![64, 64, 63]⟩
/-- A rank-zero array. -/
abbrev Scalar0 : Shape := ⟨0, ![]⟩
/-- The window: one row, 64 lanes. -/
abbrev Window : Shape := ⟨Padded.rank, ![1, 1, 64]⟩

/-- The float word of minus infinity is the bottom element of the extended reals. -/
theorem ofBits_neg_inf : Ideal.ofBits .f32 0xFF800000#32 = (⊥ : EReal) := by simp [Ideal.ofBits, Ideal.ieee]

/-- THE SPECIFICATION: entry `(b, c, t)` of the result is `rowOut` of row `(b, c)` of the samples `X`, the first stage's
    history `P` and the second stage's history `Q`. -/
def G (X : Signal.Idx → EReal) (P Q : Hist3.Idx → EReal) : Signal.Idx → EReal := fun j =>
  rowOut (fun l => P (ix3 (j 0) (j 1) l)) (fun l => Q (ix3 (j 0) (j 1) l)) (fun s => X (ix3 (j 0) (j 1) s)) (j 2)

theorem G_apply (X : Signal.Idx → EReal) (P Q : Hist3.Idx → EReal) (b c : Fin 64) (t : Fin 4096) :
    G X P Q (ix3 b c t) = rowOut (fun l => P (ix3 b c l)) (fun l => Q (ix3 b c l)) (fun s => X (ix3 b c s)) t := rfl

/-- The bound on a left fold of `max`, in the spelling of the float operation at the extended reals. -/
theorem foldl_maximumf_le_iff {ι : Type} (g : ι → EReal) (l : List ι) (v w : EReal) :
    l.foldl (fun r n => FloatOps.maximumf (F := Ideal) (φ := .f32) r (g n)) v ≤ w ↔ v ≤ w ∧ ∀ n ∈ l, g n ≤ w :=
  foldl_max_le_iff g l v w

/-- The host's reduction of `max` over the window 1 × 1 × 64 from the bottom element, at `(b, c, t)`, is the moving
    maximum of row `(b, c)` at sample `t`. -/
theorem reduceWindow_apply (x : FVec Ideal Padded .f32) (init : FVec Ideal Scalar0 .f32)
    (h : Padded.ReduceWindows (![1, 1, 64] : Fin 3 → Nat) ![1, 1, 1] ![0, 0, 0] ![0, 0, 0] Signal)
    (hu : 0 < Scalar0.numel) (hinit : init (Shape.Idx.first hu) = ⊥) (b c : Fin 64) (t : Fin 4096) :
    Host.reduceWindow (FloatOps.maximumf (F := Ideal) (φ := .f32)) ![1, 1, 64] ![1, 1, 1] ![0, 0, 0] ![0, 0, 0] x init h hu
        (ix3 b c t)
      = win (fun i => x (ix3 b c i)) t := by
  refine eq_win_of_le_iff fun w => ?_
  unfold Host.reduceWindow
  dsimp only
  rw [foldl_maximumf_le_iff, hinit]
  -- the window's positions, in whatever order the fold visits them, are the lanes `t … t + 63`
  have key : (∀ n ∈ List.finRange Window.numel, x (ix3 b c (pos t (Window.rowMajor.symm n 2 : Fin 64))) ≤ w)
      ↔ ∀ k : Fin 64, x (ix3 b c (pos t k)) ≤ w := by
    constructor
    · intro H k
      have h1 := H (Window.rowMajor (ix3 (0 : Fin 1) (0 : Fin 1) k)) (List.mem_finRange _)
      rw [Equiv.symm_apply_apply] at h1
      exact h1
    · intro H n _
      exact H _
  refine Iff.trans ?_ key
  refine (and_iff_right bot_le).trans (forall_congr' fun n => imp_congr_right fun _ =>
    iff_of_eq (congrArg (fun z : EReal => z ≤ w) ?_))
  -- each visited position is inside the padded row, on row `(b, c)`, at lane `t` plus the window's coordinate
  have q0 : (Window.rowMajor.symm n 0).val < 1 := (Window.rowMajor.symm n 0).isLt
  have q1 : (Window.rowMajor.symm n 1).val < 1 := (Window.rowMajor.symm n 1).isLt
  have q2 : (Window.rowMajor.symm n 2).val < 64 := (Window.rowMajor.symm n 2).isLt
  have hb := b.isLt; have hc := c.isLt; have ht := t.isLt
  split
  · refine congrArg x (funext fun a => Fin.ext ?_)
    match a with
    | ⟨0, _⟩ => show b.val * 1 + (Window.rowMajor.symm n 0).val - 0 = b.val; omega
    | ⟨1, _⟩ => show c.val * 1 + (Window.rowMajor.symm n 1).val - 0 = c.val; omega
    | ⟨2, _⟩ => show t.val * 1 + (Window.rowMajor.symm n 2).val - 0 = t.val + (Window.rowMajor.symm n 2).val; omega
  · rename_i hnot
    exact absurd (fun a => match a with
      | ⟨0, _⟩ => by
        show 0 ≤ b.val * 1 + (Window.rowMajor.symm n 0).val ∧ b.val * 1 + (Window.rowMajor.symm n 0).val - 0 < 64
        omega
      | ⟨1, _⟩ => by
        show 0 ≤ c.val * 1 + (Window.rowMajor.symm n 1).val ∧ c.val * 1 + (Window.rowMajor.symm n 1).val - 0 < 64
        omega
      | ⟨2, _⟩ => by
        show 0 ≤ t.val * 1 + (Window.rowMajor.symm n 2).val ∧ t.val * 1 + (Window.rowMajor.symm n 2).val - 0 < 4159
        omega) hnot

/-- A history array and a sample array joined along the last axis: row `(b, c)` is `cat` of the two rows. -/
theorem concat3_apply (hc : Shape.Concatenates [Hist3, Signal] Padded 2) (a : FVec Ideal Hist3 .f32)
    (y : FVec Ideal Signal .f32) (b c : Fin 64) (i : Fin 4159) :
    concatenate Padded 2 [⟨Hist3, a⟩, ⟨Signal, y⟩] hc (ix3 b c i)
      = cat (fun l => a (ix3 b c l)) (fun s => y (ix3 b c s)) i := by
  by_cases hi : i.val < 63
  · rw [cat_of_lt _ _ _ hi]
    exact concatenate_pair_apply_left 2 a y hc (ix3 b c i) rfl (ix3 b c ⟨i.val, hi⟩) (fun b' => match b' with
      | ⟨0, _⟩ => rfl
      | ⟨1, _⟩ => rfl
      | ⟨2, _⟩ => rfl)
  · have hi' : 63 ≤ i.val := by omega
    rw [cat_of_ge _ _ _ hi']
    exact concatenate_pair_apply_right 2 a y hc (ix3 b c i) rfl rfl (ix3 b c ⟨i.val - 63, by have := i.isLt; omega⟩)
      (fun b' hb => match b', hb with
        | ⟨0, _⟩, _ => rfl
        | ⟨1, _⟩, _ => rfl
        | ⟨2, _⟩, hb => absurd rfl hb)
      (by show i.val - 63 + 63 = i.val; omega)

end Cert.HostRow

end
-- ==== Proof.Rows.lean ====
/-
  Rows under the host's reshapes.

  The host flattens the 64 × 64 rows of each argument to 4096 rows before the kernel and unflattens the result after it.
  Both are row-major, so row `64 b + c` of a flattened array is row `(b, c)` of the array (`flatten_samples`,
  `flatten_hist`), and row `(b, c)` of the unflattened result is row `64 b + c` of the kernel's result (`unflatten`).
  `rowOut` depends on its three rows only through their values (`rowOut_congr`).
-/
import Idealize.ShloMosaic.Lib.Pipeline.Value
import Idealize.ShloMosaic.Lib.ValueIdx
import proofs.«136299_j2267742732763_2_alg».proof.Proof.SlidingMax

noncomputable section

namespace Cert.Rows

open Idealize.ShloMosaic Idealize.ShloMosaic.ValueIdx Cert.SlidingMax

theorem rowOut_congr {p p' q q' : Fin 63 → EReal} {x x' : Fin 4096 → EReal} (hp : p = p') (hq : q = q') (hx : x = x')
    (t : Fin 4096) : rowOut p q x t = rowOut p' q' x' t := by
  subst hp hq hx
  rfl

/-- The flat row number of row `(b, c)`. -/
def flatRow (b c : Fin 64) : Fin 4096 := ⟨b.val * 64 + c.val, by have := b.isLt; have := c.isLt; omega⟩

/-- Row `64 b + c` of the flattened samples is row `(b, c)` of the samples. -/
theorem flatten_samples (X : (⟨3, ![64, 64, 4096]⟩ : Shape).Idx → EReal)
    (h : (⟨3, ![64, 64, 4096]⟩ : Shape).ShapeCasts ⟨2, ![4096, 4096]⟩) (b c : Fin 64) (s : Fin 4096) :
    shapeCast ⟨2, ![4096, 4096]⟩ X h (ix2 (flatRow b c) s) = X (ix3 b c s) :=
  shapeCast_apply X h (ix2 (flatRow b c) s) (ix3 b c s) (by
    rw [Shape.rowMajor_val_three, Shape.rowMajor_val_two]
    rfl)

/-- Row `64 b + c` of a flattened history is row `(b, c)` of the history. -/
theorem flatten_hist (X : (⟨3, ![64, 64, 63]⟩ : Shape).Idx → EReal)
    (h : (⟨3, ![64, 64, 63]⟩ : Shape).ShapeCasts ⟨2, ![4096, 63]⟩) (b c : Fin 64) (l : Fin 63) :
    shapeCast ⟨2, ![4096, 63]⟩ X h (ix2 (flatRow b c) l) = X (ix3 b c l) :=
  shapeCast_apply X h (ix2 (flatRow b c) l) (ix3 b c l) (by
    rw [Shape.rowMajor_val_three, Shape.rowMajor_val_two]
    rfl)

/-- Row `(b, c)` of the unflattened result is row `64 b + c` of the flat result. -/
theorem unflatten (Y : (⟨2, ![4096, 4096]⟩ : Shape).Idx → EReal)
    (h : (⟨2, ![4096, 4096]⟩ : Shape).ShapeCasts ⟨3, ![64, 64, 4096]⟩) (b c : Fin 64) (s : Fin 4096) :
    shapeCast ⟨3, ![64, 64, 4096]⟩ Y h (ix3 b c s) = Y (ix2 (flatRow b c) s) :=
  shapeCast_apply Y h (ix3 b c s) (ix2 (flatRow b c) s) (by
    rw [Shape.rowMajor_val_two, Shape.rowMajor_val_three]
    rfl)

end Cert.Rows

end
-- ==== Proof.KernelValue.lean ====
/-
  What the kernel's program leaves in its result, as one function of its arguments.

  The grid has 16 points; point `t` works on rows `256 t … 256 t + 255` of the three flattened arrays and writes the same
  rows of the flat result, every window at lane block 0. What point `t` writes back is therefore block `t` of ONE
  function of the flat arrays: row `R` of the flat result is `rowOut` of row `R` of the flat arrays (`flat`,
  `flushed_eq`, by the body's value at an index). The 16 blocks tile the 4096 rows — row `R` is in the block of point
  `R / 256` — so the flat result after the run is that function (`final`). The host flattens the arguments before the
  region and unflattens the result after it, row `(b, c)` being flat row `64 b + c`, so the program's result is the
  specification `G` of its arguments (`result_eq`, `run`).
-/
import proofs.«136299_j2267742732763_2_alg».proof.Proof.Gen.KernelIdeal.Frame
import proofs.«136299_j2267742732763_2_alg».proof.Proof.KernelPayload
import proofs.«136299_j2267742732763_2_alg».proof.Proof.HostRow
import proofs.«136299_j2267742732763_2_alg».proof.Proof.Rows
import Idealize.ShloMosaic.Lib.Pipeline.Value
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx Cert.SlidingMax Cert.Rows
open Idealize.ShloMosaic.Pipeline (Dat)

variable (m : (ℓ : Loc nD τ sig) → Buf (Elt Ideal) ℓ) (ρ : Dev nD → PrngReg)

/-! ## The flat result as a function of the flat arrays -/

/-- Row `R` of the flat result: `rowOut` of row `R` of the flat samples `X`, the first stage's flat history `P` and the
    second stage's flat history `Q`. -/
def flat (X : S4096x4096.Idx → EReal) (P Q : S4096x63.Idx → EReal) : S4096x4096.Idx → EReal := fun j =>
  rowOut (fun l => P (ix2 (j 0) l)) (fun l => Q (ix2 (j 0) l)) (fun s => X (ix2 (j 0) s)) (j 1)

theorem flat_apply (X : S4096x4096.Idx → EReal) (P Q : S4096x63.Idx → EReal) (R s : Fin 4096) :
    flat X P Q (ix2 R s) = rowOut (fun l => P (ix2 R l)) (fun l => Q (ix2 R l)) (fun s' => X (ix2 R s')) s := rfl

theorem hz : (![0, 0] : Fin 2 → Nat) = fun _ => 0 := funext fun a => by fin_cases a <;> rfl

/-- The printed index maps, decided over the grid: every window is at the result's row block and at lane block 0. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 15 :=
  (by decide +kernel : ∀ t : Fin grid0.N, _)

/-- Every row block is some point's. -/
theorem idx_onto : ∀ q : Fin 16, ∃ t : Fin cfg0.N, win0_3.index t = ![q.val, 0] :=
  (by decide +kernel : ∀ q : Fin 16, ∃ t : Fin grid0.N, win0_3.index t = ![q.val, 0])

/-! ## The input blocks are rows of the flat arrays -/

/-- Row `r` of the sample block of point `t` is row `R` of the flat samples, `R` the row's number in the flat array. -/
theorem samples_block (c : Dev nD) (t : Fin cfg0.N) (r : Fin 256) (s : Fin 4096) (R : Fin 4096)
    (hR : R.val = win0_3.index t (0 : Fin 2) * 256 + r.val) :
    iblk m c 0 t (ix2 r s) = V m c main_v0 (ix2 R s) := by
  obtain ⟨e00, e01, -⟩ := idx_facts t
  show V m c main_v0 (((cfg0.win 0).blk t).view.emb (ix2 r s)) = V m c main_v0 (ix2 R s)
  refine congrArg (V m c main_v0) (funext fun a => Fin.ext ?_)
  match a with
  | ⟨0, _⟩ => show win0_0.index t (0 : Fin 2) * 256 + 1 * r.val = R.val; omega
  | ⟨1, _⟩ => show win0_0.index t (1 : Fin 2) * 4096 + 1 * s.val = s.val; omega

/-- Row `r` of the first stage's history block of point `t` is row `R` of the flat history. -/
theorem hist1_block (c : Dev nD) (t : Fin cfg0.N) (r : Fin 256) (l : Fin 63) (R : Fin 4096)
    (hR : R.val = win0_3.index t (0 : Fin 2) * 256 + r.val) :
    iblk m c 1 t (ix2 r l) = V m c main_v1 (ix2 R l) := by
  obtain ⟨-, -, e10, e11, -⟩ := idx_facts t
  show V m c main_v1 (((cfg0.win 1).blk t).view.emb (ix2 r l)) = V m c main_v1 (ix2 R l)
  refine congrArg (V m c main_v1) (funext fun a => Fin.ext ?_)
  match a with
  | ⟨0, _⟩ => show win0_1.index t (0 : Fin 2) * 256 + 1 * r.val = R.val; omega
  | ⟨1, _⟩ => show win0_1.index t (1 : Fin 2) * 63 + 1 * l.val = l.val; omega

/-- Row `r` of the second stage's history block of point `t` is row `R` of the flat history. -/
theorem hist2_block (c : Dev nD) (t : Fin cfg0.N) (r : Fin 256) (l : Fin 63) (R : Fin 4096)
    (hR : R.val = win0_3.index t (0 : Fin 2) * 256 + r.val) :
    iblk m c 2 t (ix2 r l) = V m c main_v2 (ix2 R l) := by
  obtain ⟨-, -, -, -, e20, e21, -⟩ := idx_facts t
  show V m c main_v2 (((cfg0.win 2).blk t).view.emb (ix2 r l)) = V m c main_v2 (ix2 R l)
  refine congrArg (V m c main_v2) (funext fun a => Fin.ext ?_)
  match a with
  | ⟨0, _⟩ => show win0_2.index t (0 : Fin 2) * 256 + 1 * r.val = R.val; omega
  | ⟨1, _⟩ => show win0_2.index t (1 : Fin 2) * 63 + 1 * l.val = l.val; omega

/-! ## What a point writes back, and the flat result after the run -/

/-- WHAT POINT `t` WRITES BACK is block `t` of `flat` of the flat arrays as the region finds them. -/
theorem flushed_eq (c : Dev nD) (t : Fin cfg0.N) :
    (dats m 0 c).flushed 3 t
      = ((cfg0.win 3).blk t).view.read (Elt Ideal) (flat (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S256x63) hz]
  obtain ⟨-, -, -, -, -, -, e31, e3b⟩ := idx_facts t
  refine funext fun (j : S256x4096.Idx) => ?_
  obtain ⟨r, s, rfl⟩ : ∃ (r : Fin 256) (s : Fin 4096), j = ix2 r s := ⟨j 0, j 1, eq_ix2 j⟩
  have hr := r.isLt
  have hs := s.isLt
  obtain ⟨R, hR⟩ : ∃ R : Fin 4096, R.val = win0_3.index t (0 : Fin 2) * 256 + r.val := ⟨⟨_, by omega⟩, rfl⟩
  have hemb : ((cfg0.win 3).blk t).view.emb (ix2 r s) = ix2 R s := funext fun a => Fin.ext (match a with
    | ⟨0, _⟩ => by show win0_3.index t (0 : Fin 2) * 256 + 1 * r.val = R.val; omega
    | ⟨1, _⟩ => by show win0_3.index t (1 : Fin 2) * 4096 + 1 * s.val = s.val; omega)
  show k0_pay1 (F := Ideal) (iblk m c 1 t) (iblk m c 0 t) (iblk m c 2 t) (ix2 r s)
    = flat (V m c main_v0) (V m c main_v1) (V m c main_v2) (((cfg0.win 3).blk t).view.emb (ix2 r s))
  rw [hemb, flat_apply]
  refine (Payload.pay_apply (iblk m c 1 t) (iblk m c 2 t) (iblk m c 0 t) r s).trans ?_
  exact rowOut_congr (funext fun l => hist1_block m c t r l R hR) (funext fun l => hist2_block m c t r l R hR)
    (funext fun s' => samples_block m c t r s' R hR) s

/-- An index of the flat result is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v3).slice (win0_3.rect t)).set ↔ _
  rw [View.set_slice_whole, Rect.mem_set_unit]
  exact Iff.rfl

/-- Every index of the flat result is in some point's block: row `R` in the block of point `R / 256`. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- THE FLAT RESULT after the run is `flat` of the flat arrays as the region finds them. -/
theorem final (c : Dev nD) :
    (dats m 0 c).arrAt 3 cfg0.N = flat (V m c main_v0) (V m c main_v1) (V m c main_v2) :=
  (dats m 0 c).arrAt_eq_of_cover 3 _ (fun t _ => flushed_eq m c t) cover

/-! ## The host's reshapes around the region -/

/-- The region finds the samples flattened. -/
theorem V_v0 (c : Dev nD) : (V m c main_v0 : S4096x4096.Idx → EReal)
    = shapeCast S4096x4096 (m ((c : Thread nD τ).loc main_arg0)) shapeCasts_S64x64x4096_S4096x4096 := by
  show StableHlo.after hostOps0 (fun b => m (c, b)) (Proc.devRef .tc main_v0) = _
  after_results
  rfl

/-- The region finds the first stage's history flattened. -/
theorem V_v1 (c : Dev nD) : (V m c main_v1 : S4096x63.Idx → EReal)
    = shapeCast S4096x63 (m ((c : Thread nD τ).loc main_arg1)) shapeCasts_S64x64x63_S4096x63 := by
  show StableHlo.after hostOps0 (fun b => m (c, b)) (Proc.devRef .tc main_v1) = _
  after_results
  rfl

/-- The region finds the second stage's history flattened. -/
theorem V_v2 (c : Dev nD) : (V m c main_v2 : S4096x63.Idx → EReal)
    = shapeCast S4096x63 (m ((c : Thread nD τ).loc main_arg2)) shapeCasts_S64x64x63_S4096x63 := by
  show StableHlo.after hostOps0 (fun b => m (c, b)) (Proc.devRef .tc main_v2) = _
  after_results
  rfl

/-- THE PROGRAM'S RESULT: the flat result unflattened is the specification of the arguments. -/
theorem result_eq (c : Dev nD) :
    Pipeline.afterTail₀ cfgs (dats m) 0 (V0 m) [hostOps1] c main_v4
      = Cert.HostRow.G (m ((c : Thread nD τ).loc main_arg0)) (m ((c : Thread nD τ).loc main_arg1))
          (m ((c : Thread nD τ).loc main_arg2)) := by
  have hw : Pipeline.withArrays (cfgs 0).spec c (V0 m c) (fun w => (dats m 0 c).arrAt w (cfgs 0).N)
      (Proc.devRef .tc main_v3) = flat (V m c main_v0) (V m c main_v1) (V m c main_v2) :=
    (Pipeline.withArrays_arr spec0 launch0.win.arr_inj c _ _ 3).trans (final m c)
  unfold Pipeline.afterTail₀
  show StableHlo.after hostOps1 _ (Proc.devRef .tc main_v4) = _
  after_results
  refine funext fun (j : S64x64x4096.Idx) => ?_
  obtain ⟨b, d, s, rfl⟩ : ∃ (b d : Fin 64) (s : Fin 4096), j = ix3 b d s := ⟨j 0, j 1, j 2, eq_ix3 j⟩
  show shapeCast S64x64x4096 (Pipeline.withArrays (cfgs 0).spec c (V0 m c)
    (fun w => (dats m 0 c).arrAt w (cfgs 0).N) (Proc.devRef .tc main_v3)) shapeCasts_S4096x4096_S64x64x4096 (ix3 b d s) = _
  rw [hw, unflatten, flat_apply, Cert.HostRow.G_apply]
  refine rowOut_congr (funext fun l => ?_) (funext fun l => ?_) (funext fun s' => ?_) s
  · rw [V_v1]; exact flatten_hist _ _ b d l
  · rw [V_v2]; exact flatten_hist _ _ b d l
  · rw [V_v0]; exact flatten_samples _ _ b d s'

/-- THE RUN, READ: every weakly fair execution of the program terminates with its result at the specification of its
    arguments, and the arguments unchanged. -/
theorem run : θ_run defs (onTc (τ := τ) (main (F := Ideal))) ⟨m, fun _ => 0, ρ⟩ fun r => ∀ c : Dev nD,
      r.2.mem ((c.tc : Thread nD τ).loc main_v4)
        = Cert.HostRow.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference computes the specification.

  The reference joins the first stage's history and the samples along the last axis, reduces `max` over the window
  1 × 1 × 64 from minus infinity, joins the result behind the second stage's history, negates, reduces again and
  negates. Entry `(b, c, t)` is therefore `rowOut` of row `(b, c)` of the three arguments — the specification `G`:
  the two reductions by `reduceWindow_apply` (their initial value is the bottom element), the two joins by
  `concat3_apply`, the host's negation the negation of the extended reals.
-/
import proofs.«136299_j2267742732763_2_alg».proof.Proof.Gen.ReferenceIdeal.Read
import proofs.«136299_j2267742732763_2_alg».proof.Proof.HostRow

noncomputable section

namespace Cert.ReferenceIdeal.RefValue

open Cert.ReferenceIdeal Cert.ReferenceIdeal.Gen Cert.ReferenceIdeal.Read
open Idealize.ShloMosaic Idealize.ShloMosaic.ValueIdx Cert.SlidingMax Cert.HostRow

/-- The first reduction starts from the bottom element. -/
theorem init_v1 : val_main_v1 (F := Ideal) (Shape.Idx.first h_S_) = (⊥ : EReal) := by
  rw [val_main_v1_apply, val_main_cst_apply]
  exact ofBits_neg_inf

/-- The second reduction starts from the bottom element. -/
theorem init_v5 : val_main_v5 (F := Ideal) (Shape.Idx.first h_S_) = (⊥ : EReal) := by
  rw [val_main_v5_apply, val_main_cst_0_apply]
  exact ofBits_neg_inf

/-- The reference's result, as a function of the samples `x0`, the first stage's history `x1` and the second stage's
    history `x2`, is the specification. -/
theorem val_eq_G (x0 : (⟨S64x64x4096, .f32⟩ : BufTy).Contents (Elt Ideal))
    (x1 x2 : (⟨S64x64x63, .f32⟩ : BufTy).Contents (Elt Ideal)) :
    val_main_v7 (F := Ideal) x0 x1 x2 = G x0 x1 x2 := by
  funext j
  obtain ⟨b, c, t, rfl⟩ : ∃ (b c : Fin 64) (t : Fin 4096), j = ix3 b c t := ⟨j 0, j 1, j 2, eq_ix3 j⟩
  rw [G_apply, val_main_v7_apply]
  show -(val_main_v6 (F := Ideal) x0 x1 x2 (ix3 b c t)) = _
  unfold val_main_v6
  rw [reduceWindow_apply _ _ _ _ init_v5]
  unfold rowOut
  refine congrArg (fun f : Fin 4159 → EReal => -win f t) (funext fun i => ?_)
  rw [val_main_v4_apply]
  show -(val_main_v3 (F := Ideal) x0 x1 x2 (ix3 b c i)) = _
  unfold val_main_v3
  rw [concat3_apply]
  refine congrArg (fun f : Fin 4096 → EReal => -cat (fun l => x2 (ix3 b c l)) f i) (funext fun s => ?_)
  unfold val_main_v2
  rw [reduceWindow_apply _ _ _ _ init_v1]
  refine congrArg (fun f : Fin 4159 → EReal => win f s) (funext fun i' => ?_)
  unfold val_main_v0
  rw [concat3_apply]

end Cert.ReferenceIdeal.RefValue

end
-- ==== Proof.lean ====
/-
  A causal moving maximum of window 64 followed by a causal moving minimum of window 64, along the last axis of a
  64 × 64 × 4096 signal, each stage fed 63 lanes of history per row.

  Per row, with history `p` for the first stage, history `q` for the second and samples `x`: let `u = [p, x]` (4159 lanes)
  and `M t = max (u t … u (t + 63))`; let `v = [q, M]` and the result at `t` be `min (v t … v (t + 63))`, computed as
  `-(max (-v t … -v (t + 63)))`. This is the specification `G` (Proof/SlidingMax.lean `rowOut`, Proof/HostRow.lean `G`).

  The reference computes each stage as a window reduction of `max` from minus infinity over the 64 lanes: a fold whose
  value is its least upper bound in whatever order it runs (Proof/HostRow.lean, Proof/RefValue.lean). The kernel flattens
  the 64 × 64 rows to 4096, takes 256 rows per grid point, and computes each stage by six rounds of "rotate the row by
  1, 2, 4, 8, 16, 32 lanes and take the maximum with itself": after the rounds lane `i` holds the maximum of the 64 lanes
  ending at `i`, counted around the end of the row, and keeping lanes 63 … 4158 keeps exactly the lanes whose 64
  predecessors do not come around (Proof/DoublingMax.lean, Proof/KernelPayload.lean); its negation is `0 - x`. Both sides
  are characterised by their upper bounds, so no two orders of taking a maximum are ever compared, and nothing needs the
  inputs to be finite: the precondition is not used. The 16 blocks of 256 rows tile the flat result, and the host's
  reshapes around the kernel are row-major (Proof/KernelValue.lean, Proof/Rows.lean).

  The ideal pass rewrote nothing, so `preserves` is trivial; the three frames are the generated ones (the reference's
  is its generated run with the result dropped).
-/
import proofs.«136299_j2267742732763_2_alg».proof.Defs
import proofs.«136299_j2267742732763_2_alg».proof.Proof.Gen.Kernel
import proofs.«136299_j2267742732763_2_alg».proof.Proof.Gen.Kernel.Skeleton
import proofs.«136299_j2267742732763_2_alg».proof.Proof.Gen.Kernel.Launch
import proofs.«136299_j2267742732763_2_alg».proof.Proof.Gen.Kernel.Points
import proofs.«136299_j2267742732763_2_alg».proof.Proof.Gen.Kernel.Frame
import proofs.«136299_j2267742732763_2_alg».proof.Proof.Gen.KernelIdeal
import proofs.«136299_j2267742732763_2_alg».proof.Proof.Gen.KernelIdeal.Skeleton
import proofs.«136299_j2267742732763_2_alg».proof.Proof.Gen.KernelIdeal.Launch
import proofs.«136299_j2267742732763_2_alg».proof.Proof.Gen.KernelIdeal.Points
import proofs.«136299_j2267742732763_2_alg».proof.Proof.Gen.KernelIdeal.Frame
import proofs.«136299_j2267742732763_2_alg».proof.Proof.Gen.ReferenceIdeal
import proofs.«136299_j2267742732763_2_alg».proof.Proof.Gen.Pre_finite_inputs
import proofs.«136299_j2267742732763_2_alg».proof.Proof.Gen.ReferenceIdeal.Run
import proofs.«136299_j2267742732763_2_alg».proof.Proof.Gen.ReferenceIdeal.Read
import proofs.«136299_j2267742732763_2_alg».proof.Proof.KernelValue
import proofs.«136299_j2267742732763_2_alg».proof.Proof.RefValue
import Idealize.ShloMosaic.Adequacy
import Idealize.ShloMosaic.Init

noncomputable section

namespace Cert.Proof

open Idealize.ShloMosaic Idealize.SL.Sem

/-- The kernel's program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the extended reals both programs, from memories that agree on the arguments, end with the specification `G` of
    the arguments in their results: the kernel's by its run read through the blocks and the host's reshapes, the
    reference's by its run read one operation at a time. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.val_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
